-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12288 : Shape := ⟨2, ![1024, 12288]⟩
abbrev S209x12288 : Shape := ⟨2, ![209, 12288]⟩
abbrev S209 : Shape := ⟨1, ![209]⟩
abbrev S2x209 : Shape := ⟨2, ![2, 209]⟩
abbrev S2 : Shape := ⟨1, ![2]⟩
abbrev S_ : Shape := ⟨0, ![]⟩

class Facts : Prop where
  bcast_S_S1024x12288 : S_.BroadcastsInDim S1024x12288 (![] : Fin 0 → Fin S1024x12288.rank)
  reducesTo_S1024x12288_S_d0_1 : S1024x12288.ReducesTo [0, 1] S_
  h_S_ : 0 < S_.numel
  bcast_S_S209x12288 : S_.BroadcastsInDim S209x12288 (![] : Fin 0 → Fin S209x12288.rank)
  reducesTo_S209x12288_S_d0_1 : S209x12288.ReducesTo [0, 1] S_
  bcast_S_S209 : S_.BroadcastsInDim S209 (![] : Fin 0 → Fin S209.rank)
  reducesTo_S209_S_d0 : S209.ReducesTo [0] S_
  bcast_S_S2x209 : S_.BroadcastsInDim S2x209 (![] : Fin 0 → Fin S2x209.rank)
  reducesTo_S2x209_S_d0_1 : S2x209.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg2 : FVec F S209 .f32) (main_arg4 : FVec F S2 .f32) (main_v13 : IVec S_ 1) (main_v16 : IVec S2x209 1) : IVec S_ 1 :=
  let main_c_5 : IVec S_ 1 := constantI S_ 1 1#1
  let main_v17 : IVec S_ 1 := (fun x v => Host.reduce IntOp.andi x v reducesTo_S2x209_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_cst_8 : FVec F S_ .f32 := constant S_ .f32 0x00000000#32
  let main_v24 : FVec F S209 .f32 := broadcastInDim S209 ![] bcast_S_S209 main_cst_8
  let main_v25 : IVec S209 1 := cmpf .une main_arg2 main_v24
  let main_c_9 : IVec S_ 1 := constantI S_ 1 1#1
  let main_v26 : IVec S_ 1 := (fun x v => Host.reduce IntOp.andi x v reducesTo_S209_S_d0 h_S_) main_v25 main_c_9
  let main_v27 : IVec S_ 1 := andi main_v23 main_v26
  main_v27

def fn {F : FTy → Type} [FloatOps F] (main_arg0 : FVec F S1024x12288 .f32) (main_arg1 : FVec F S209x12288 .f32) (main_arg2 : FVec F S209 .f32) (main_arg3 : FVec F S2x209 .f32) (main_arg4 : FVec F S2 .f32) : IVec S_ 1 :=
  let main_v0 : FVec F S1024x12288 .f32 := Host.absf main_arg0
  let main_cst : FVec F S_ .f32 := constant S_ .f32 0x7F800000#32
  let main_v1 : FVec F S1024x12288 .f32 := broadcastInDim S1024x12288 ![] bcast_S_S1024x12288 main_cst
  let main_v2 : IVec S1024x12288 1 := cmpf .olt main_v0 main_v1
  let main_c : IVec S_ 1 := constantI S_ 1 1#1
  let main_v3 : IVec S_ 1 := (fun x v => Host.reduce IntOp.andi x v reducesTo_S1024x12288_S_d0_1 h_S_) main_v2 main_c
  let main_v4 : FVec F S209x12288 .f32 := Host.absf main_arg1
  let main_cst_0 : FVec F S_ .f32 := constant S_ .f32 0x7F800000#32
  let main_v5 : FVec F S209x12288 .f32 := broadcastInDim S209x12288 ![] bcast_S_S209x12288 main_cst_0
  let main_v6 : IVec S209x12288 1 := cmpf .olt main_v4 main_v5
  let main_c_1 : IVec S_ 1 := constantI S_ 1 1#1
  let main_v7 : IVec S_ 1 := (fun x v => Host.reduce IntOp.andi x v reducesTo_S209x12288_S_d0_1 h_S_) main_v6 main_c_1
  let main_v8 : IVec S_ 1 := andi main_v3 main_v7
  let main_v9 : FVec F S209 .f32 := Host.absf main_arg2
  let main_cst_2 : FVec F S_ .f32 := constant S_ .f32 0x7F800000#32
  let main_v10 : FVec F S209 .f32 := broadcastInDim S209 ![] bcast_S_S209 main_cst_2
  let main_v11 : IVec S209 1 := cmpf .olt main_v9 main_v10
  let main_c_3 : IVec S_ 1 := constantI S_ 1 1#1
  let main_v12 : IVec S_ 1 := (fun x v => Host.reduce IntOp.andi x v reducesTo_S209_S_d0 h_S_) main_v11 main_c_3
  let main_v13 : IVec S_ 1 := andi main_v8 main_v12
  let main_v14 : FVec F S2x209 .f32 := Host.absf main_arg3
  let main_cst_4 : FVec F S_ .f32 := constant S_ .f32 0x7F800000#32
  let main_v15 : FVec F S2x209 .f32 := broadcastInDim S2x209 ![] bcast_S_S2x209 main_cst_4
  let main_v16 : IVec S2x209 1 := cmpf .olt main_v14 main_v15
  fn_part1 (F := F) main_arg2 main_arg4 main_v13 main_v16
-- ==== Kernel.lean ====
abbrev S1024x12288 : Shape := ⟨2, ![1024, 12288]⟩
abbrev S209x12288 : Shape := ⟨2, ![209, 12288]⟩
abbrev S209 : Shape := ⟨1, ![209]⟩
abbrev S2x209 : Shape := ⟨2, ![2, 209]⟩
abbrev S2 : Shape := ⟨1, ![2]⟩
abbrev S_ : Shape := ⟨0, ![]⟩
abbrev S256x12288 : Shape := ⟨2, ![256, 12288]⟩
abbrev S256 : Shape := ⟨1, ![256]⟩
abbrev S1x256 : Shape := ⟨2, ![1, 256]⟩
abbrev S2x256 : Shape := ⟨2, ![2, 256]⟩
abbrev S1x2 : Shape := ⟨2, ![1, 2]⟩
abbrev S1024x2 : Shape := ⟨2, ![1024, 2]⟩
abbrev S128x12288 : Shape := ⟨2, ![128, 12288]⟩
abbrev S128x2 : Shape := ⟨2, ![128, 2]⟩
abbrev S12288x256 : Shape := ⟨2, ![12288, 256]⟩
abbrev S128x256 : Shape := ⟨2, ![128, 256]⟩
abbrev S128 : Shape := ⟨1, ![128]⟩
abbrev S128x1 : Shape := ⟨2, ![128, 1]⟩
abbrev S256x2 : Shape := ⟨2, ![256, 2]⟩

abbrev nBuf : Space → Nat
  | .hbm => 26
  | .vmem => 9
  | .smem => 0
  | _ => 0

abbrev bufTy : (tb : Table) → Fin (tcTables nBuf tb) → BufTy
  | .hbm, ⟨0, _⟩ => ⟨S1024x12288, .f32⟩
  | .hbm, ⟨1, _⟩ => ⟨S209x12288, .f32⟩
  | .hbm, ⟨2, _⟩ => ⟨S209, .f32⟩
  | .hbm, ⟨3, _⟩ => ⟨S2x209, .f32⟩
  | .hbm, ⟨4, _⟩ => ⟨S2, .f32⟩
  | .hbm, ⟨5, _⟩ => ⟨S_, .i32⟩
  | .hbm, ⟨6, _⟩ => ⟨S_, .f32⟩
  | .hbm, ⟨7, _⟩ => ⟨S256x12288, .f32⟩
  | .hbm, ⟨8, _⟩ => ⟨S256x12288, .bf16⟩
  | .hbm, ⟨9, _⟩ => ⟨S256x12288, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S209, .f32⟩
  | .hbm, ⟨14, _⟩ => ⟨S_, .f32⟩
  | .hbm, ⟨15, _⟩ => ⟨S209, .f32⟩
  | .hbm, ⟨16, _⟩ => ⟨S209, .f32⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S1x256, .f32⟩
  | .hbm, ⟨21, _⟩ => ⟨S_, .i32⟩
  | .hbm, ⟨22, _⟩ => ⟨S_, .f32⟩
  | .hbm, ⟨23, _⟩ => ⟨S2x256, .f32⟩
  | .hbm, ⟨24, _⟩ => ⟨S1x2, .f32⟩
  | .hbm, ⟨25, _⟩ => ⟨S1024x2, .f32⟩
  | .local _ .vmem, ⟨0, _⟩ => ⟨S128x12288, .f32⟩
  | .local _ .vmem, ⟨1, _⟩ => ⟨S128x12288, .f32⟩
  | .local _ .vmem, ⟨2, _⟩ => ⟨S256x12288, .bf16⟩
  | .local _ .vmem, ⟨3, _⟩ => ⟨S1x256, .f32⟩
  | .local _ .vmem, ⟨4, _⟩ => ⟨S1x256, .f32⟩
  | .local _ .vmem, ⟨5, _⟩ => ⟨S2x256, .f32⟩
  | .local _ .vmem, ⟨6, _⟩ => ⟨S1x2, .f32⟩
  | .local _ .vmem, ⟨7, _⟩ => ⟨S128x2, .f32⟩
  | .local _ .vmem, ⟨8, _⟩ => ⟨S128x2, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S209x12288_S256x12288_0470_000 : S209x12288.Pads (![0, 0] : Fin 2 → Nat) ![47, 0] ![0, 0] S256x12288
  h_S_ : 0 < S_.numel
  bitsLt_bf16_f32 : FTy.bits .bf16 < FTy.bits .f32
  reducesTo_S256x12288_S256_d1 : S256x12288.ReducesTo [1] S256
  shapeCasts_S256_S1x256 : S256.ShapeCasts S1x256
  bcast_S_S209 : S_.BroadcastsInDim S209 (![] : Fin 0 → Fin S209.rank)
  pads_S209_S256_0470 : S209.Pads (![0] : Fin 1 → Nat) ![47] ![0] S256
  pads_S2x209_S2x256_000_0470 : S2x209.Pads (![0, 0] : Fin 2 → Nat) ![0, 47] ![0, 0] S2x256
  shapeCasts_S2_S1x2 : S2.ShapeCasts S1x2
  inb_S128x12288_S128x12288_0_0 : ∀ a, (![0, 0] : Fin 2 → Nat) a + S128x12288.size a ≤ S128x12288.size a
  h_S128x12288 : 0 < S128x12288.numel
  inb_S256x12288_S256x12288_0_0 : ∀ a, (![0, 0] : Fin 2 → Nat) a + S256x12288.size a ≤ S256x12288.size a
  h_S256x12288 : 0 < S256x12288.numel
  shapeCasts_S256x12288_S256x12288 : S256x12288.ShapeCasts S256x12288
  transposes_S256x12288_p1_0_S12288x256 : S256x12288.Transposes [1, 0] S12288x256
  reduces_S128x12288_S128 : S128x12288.Reduces [1] S128
  shapeCasts_S128_S128x1 : S128.ShapeCasts S128x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S128x1_S128x256 : S128x1.Broadcasts S128x256
  broadcasts_S1x256_S128x256 : S1x256.Broadcasts S128x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  transposes_S2x256_p1_0_S256x2 : S2x256.Transposes [1, 0] S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  dot_S128x12288_S12288x256_S128x256_1_0_0_1_n_n_wf : DotDims.WF S128x12288 S12288x256 S128x256 [1] [0] [0] [1] [] []
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12288.size a ≤ S1024x12288.size a
  hwx0_0 : ∀ i : grid0.Coords, EltTy.bits .f32 = 32 ∨ (Rect.block (s := S1024x12288) S128x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x12288.size a ≤ S256x12288.size a
  hwx0_1 : ∀ i : grid0.Coords, EltTy.bits .bf16 = 32 ∨ (Rect.block (s := S256x12288) S256x12288.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S1024x2.size a
  hwx0_6 : ∀ i : grid0.Coords, EltTy.bits .f32 = 32 ∨ (Rect.block (s := S1024x2) S128x2.size (cc0_transform_6 i) (hinb0_6 i)).WholeWords (EltTy.packing .f32)

variable [Facts₀]

def dot_S128x12288_S12288x256_S128x256_1_0_0_1_n_n : DotDims S128x12288 S12288x256 S128x256 where
  lhsContracting := [1]
  rhsContracting := [0]
  lhsNonContracting := [0]
  rhsNonContracting := [1]
  lhsBatch := []
  rhsBatch := []
  wf := dot_S128x12288_S12288x256_S128x256_1_0_0_1_n_n_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_arg0) S128x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S128x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x12288 : Shape := ⟨2, ![1024, 12288]⟩
abbrev S209x12288 : Shape := ⟨2, ![209, 12288]⟩
abbrev S209 : Shape := ⟨1, ![209]⟩
abbrev S2x209 : Shape := ⟨2, ![2, 209]⟩
abbrev S2 : Shape := ⟨1, ![2]⟩
abbrev S_ : Shape := ⟨0, ![]⟩
abbrev S1024 : Shape := ⟨1, ![1024]⟩
abbrev S1024x1 : Shape := ⟨2, ![1024, 1]⟩
abbrev S1x209 : Shape := ⟨2, ![1, 209]⟩
abbrev S1024x209 : Shape := ⟨2, ![1024, 209]⟩
abbrev S12288x209 : Shape := ⟨2, ![12288, 209]⟩
abbrev S209x2 : Shape := ⟨2, ![209, 2]⟩
abbrev S1024x2 : Shape := ⟨2, ![1024, 2]⟩
abbrev S1x2 : Shape := ⟨2, ![1, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S209x12288, .f32⟩
  | .hbm, ⟨2, _⟩ => ⟨S209, .f32⟩
  | .hbm, ⟨3, _⟩ => ⟨S2x209, .f32⟩
  | .hbm, ⟨4, _⟩ => ⟨S2, .f32⟩
  | .hbm, ⟨5, _⟩ => ⟨S1024x12288, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S209x12288, .f32⟩
  | .hbm, ⟨10, _⟩ => ⟨S_, .f32⟩
  | .hbm, ⟨11, _⟩ => ⟨S209, .f32⟩
  | .hbm, ⟨12, _⟩ => ⟨S1x209, .f32⟩
  | .hbm, ⟨13, _⟩ => ⟨S1024x209, .f32⟩
  | .hbm, ⟨14, _⟩ => ⟨S1024x209, .f32⟩
  | .hbm, ⟨15, _⟩ => ⟨S1024x209, .f32⟩
  | .hbm, ⟨16, _⟩ => ⟨S12288x209, .f32⟩
  | .hbm, ⟨17, _⟩ => ⟨S1024x209, .f32⟩
  | .hbm, ⟨18, _⟩ => ⟨S_, .f32⟩
  | .hbm, ⟨19, _⟩ => ⟨S1024x209, .f32⟩
  | .hbm, ⟨20, _⟩ => ⟨S1024x209, .f32⟩
  | .hbm, ⟨21, _⟩ => ⟨S1024x209, .f32⟩
  | .hbm, ⟨22, _⟩ => ⟨S_, .f32⟩
  | .hbm, ⟨23, _⟩ => ⟨S1024x209, .f32⟩
  | .hbm, ⟨24, _⟩ => ⟨S1024x209, .f32⟩
  | .hbm, ⟨25, _⟩ => ⟨S1024x209, .f32⟩
  | .hbm, ⟨26, _⟩ => ⟨S1024x209, .f32⟩
  | .hbm, ⟨27, _⟩ => ⟨S209, .f32⟩
  | .hbm, ⟨28, _⟩ => ⟨S1x209, .f32⟩
  | .hbm, ⟨29, _⟩ => ⟨S1024x209, .f32⟩
  | .hbm, ⟨30, _⟩ => ⟨S1024x209, .f32⟩
  | .hbm, ⟨31, _⟩ => ⟨S1024x209, .f32⟩
  | .hbm, ⟨32, _⟩ => ⟨S209x2, .f32⟩
  | .hbm, ⟨33, _⟩ => ⟨S1024x2, .f32⟩
  | .hbm, ⟨34, _⟩ => ⟨S1x2, .f32⟩
  | .hbm, ⟨35, _⟩ => ⟨S1024x2, .f32⟩
  | .hbm, ⟨36, _⟩ => ⟨S1024x2, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S1024x12288_S1024_d1 : S1024x12288.ReducesTo [1] S1024
  h_S_ : 0 < S_.numel
  bcast_S1024_S1024x1_0 : S1024.BroadcastsInDim S1024x1 (![0] : Fin 1 → Fin S1024x1.rank)
  reducesTo_S209x12288_S209_d1 : S209x12288.ReducesTo [1] S209
  bcast_S209_S1x209_1 : S209.BroadcastsInDim S1x209 (![1] : Fin 1 → Fin S1x209.rank)
  bcast_S1024x1_S1024x209_0_1 : S1024x1.BroadcastsInDim S1024x209 (![0, 1] : Fin 2 → Fin S1024x209.rank)
  bcast_S1x209_S1024x209_0_1 : S1x209.BroadcastsInDim S1024x209 (![0, 1] : Fin 2 → Fin S1024x209.rank)
  transposes_S209x12288_S12288x209_1_0 : S209x12288.Transposes [1, 0] S12288x209
  bcast_S_S1024x209 : S_.BroadcastsInDim S1024x209 (![] : Fin 0 → Fin S1024x209.rank)
  transposes_S2x209_S209x2_1_0 : S2x209.Transposes [1, 0] S209x2
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  dot_S1024x12288_S12288x209_S1024x209_1_0_0_1_n_n_wf : DotDims.WF S1024x12288 S12288x209 S1024x209 [1] [0] [0] [1] [] []
  dot_S1024x209_S209x2_S1024x2_1_0_0_1_n_n_wf : DotDims.WF S1024x209 S209x2 S1024x2 [1] [0] [0] [1] [] []

variable [Facts₀]

def dot_S1024x12288_S12288x209_S1024x209_1_0_0_1_n_n : DotDims S1024x12288 S12288x209 S1024x209 where
  lhsContracting := [1]
  rhsContracting := [0]
  lhsNonContracting := [0]
  rhsNonContracting := [1]
  lhsBatch := []
  rhsBatch := []
  wf := dot_S1024x12288_S12288x209_S1024x209_1_0_0_1_n_n_wf
def dot_S1024x209_S209x2_S1024x2_1_0_0_1_n_n : DotDims S1024x209 S209x2 S1024x2 where
  lhsContracting := [1]
  rhsContracting := [0]
  lhsNonContracting := [0]
  rhsNonContracting := [1]
  lhsBatch := []
  rhsBatch := []
  wf := dot_S1024x209_S209x2_S1024x2_1_0_0_1_n_n_wf

class Facts : Prop extends Facts₀ where

variable [Facts]
-- ==== Proof.RbfSpec.lean ====
/-
  The radial-basis layer as ONE function of its five arguments, entry by entry, on the extended reals.

  For a batch `x` (1024 rows of 12288 features), centres `c` (209 rows), widths `σ`, output weights `W` (2 × 209) and a
  bias `b`:

    dist(i, j)   = √ max(‖xᵢ‖² + ‖cⱼ‖² − 2 · ⟨xᵢ, cⱼ⟩, 0)        the Euclidean distance through the expansion of the square
    radial(i, j) = exp(−dist(i, j) / (σⱼ · σⱼ))
    out(i, s)    = ∑ⱼ radial(i, j) · W(s, j) + b(s)

  with `‖·‖²` and `⟨·,·⟩` the plain sums over the 12288 features. Every operation is the exact one on the extended
  reals (the quotient `Ideal.div`, the root `Ideal.sqrt`, the exponential `Ideal.exp`).
-/
import Idealize.ShloMosaic.PureOps.Ideal
import Idealize.ShloMosaic.Lib.ValueIdx

noncomputable section

open scoped BigOperators

namespace Cert.Rbf

open Idealize.ShloMosaic Idealize.ShloMosaic.ValueIdx

/-- The squared norm of row `i`. -/
def sqNorm {a b : ℕ} (x : (⟨2, ![a, b]⟩ : Shape).Idx → EReal) (i : Fin a) : EReal :=
  ∑ k : Fin b, x (ix2 i k) * x (ix2 i k)

/-- The inner product of row `i` of `x` with row `j` of `c`. -/
def rowDot {a a' b : ℕ} (x : (⟨2, ![a, b]⟩ : Shape).Idx → EReal) (c : (⟨2, ![a', b]⟩ : Shape).Idx → EReal)
    (i : Fin a) (j : Fin a') : EReal :=
  ∑ k : Fin b, x (ix2 i k) * c (ix2 j k)

/-- The distance from row `i` to centre `j`, from two squared norms `u`, `v` and an inner product `d`:
    `√ max(u + v − 2 d, 0)`. -/
def distOf (u v d : EReal) : EReal :=
  Ideal.sqrt (max ((u + v) - Ideal.ofBits .f32 0x40000000#32 * d) 0)

/-- `radial(i, j) = exp(−dist(i, j) / (σⱼ · σⱼ))`. -/
def radial (x : (⟨2, ![1024, 12288]⟩ : Shape).Idx → EReal) (c : (⟨2, ![209, 12288]⟩ : Shape).Idx → EReal)
    (σ : (⟨1, ![209]⟩ : Shape).Idx → EReal) (i : Fin 1024) (j : Fin 209) : EReal :=
  Ideal.exp (Ideal.div (-(distOf (sqNorm x i) (sqNorm c j) (rowDot x c i j))) (σ (ix1 j) * σ (ix1 j)))

/-- The layer's output: `out(i, s) = ∑ⱼ radial(i, j) · W(s, j) + b(s)`. -/
def rbfOut (x : (⟨2, ![1024, 12288]⟩ : Shape).Idx → EReal) (c : (⟨2, ![209, 12288]⟩ : Shape).Idx → EReal)
    (σ : (⟨1, ![209]⟩ : Shape).Idx → EReal) (W : (⟨2, ![2, 209]⟩ : Shape).Idx → EReal)
    (b : (⟨1, ![2]⟩ : Shape).Idx → EReal) : (⟨2, ![1024, 2]⟩ : Shape).Idx → EReal :=
  fun o => (∑ j : Fin 209, radial x c σ (o 0) j * W (ix2 (o 1) j)) + b (ix1 (o 1))

end Cert.Rbf

end
-- ==== Proof.RefIsRbf.lean ====
/-
  The reference program's result is the radial-basis layer `Cert.Rbf.rbfOut` of its arguments.

  The reference computes the two squared norms by host sums from a zero initial value, the inner products by one
  matrix product against the transposed centres, the quotient by `σ · σ` broadcast along the rows, and the output by a
  second matrix product against the transposed weights plus the broadcast bias. Read at an entry `(i, s)` each of these
  is the corresponding plain sum or entry of the specification; the zero initial values drop out (`0 + u = u`).
-/
import proofs.«116189_j57715770523862_2_alg».proof.Proof.Gen.ReferenceIdeal.Read
import proofs.«116189_j57715770523862_2_alg».proof.Proof.RbfSpec

noncomputable section

open scoped BigOperators

namespace Cert.Rbf.Ref

open Cert.ReferenceIdeal Cert.ReferenceIdeal.Read Idealize.ShloMosaic Idealize.ShloMosaic.ValueIdx

/-- Two indices of a literal shape are equal when their coordinates are. -/
local macro "idx_eq" : tactic => `(tactic| (funext a; apply Fin.ext; fin_cases a <;> rfl))

variable (i : Fin 1024) (s : Fin 2) (j : Fin 209) (k : Fin 12288)

theorem l24 : lidx_main_v24 (ix2 i s) j = ix2 i j := by idx_eq
theorem r24 : ridx_main_v24 (ix2 i s) j = ix2 j s := by idx_eq
theorem i23 : idx_main_v23 (ix2 j s) = ix2 s j := by idx_eq
theorem i26 : idx_main_v26 (ix2 i s) = ix2 (0 : Fin 1) s := by idx_eq
theorem i25 : idx_main_v25 (ix2 (0 : Fin 1) s) = ix1 s := by idx_eq
theorem i6 : idx_main_v6 (ix2 i j) = ix2 i (0 : Fin 1) := by idx_eq
theorem i2 : idx_main_v2 (ix2 i (0 : Fin 1)) = ix1 i := by idx_eq
theorem i1 : idx_main_v1 (ix1 i) k = ix2 i k := by idx_eq
theorem i7 : idx_main_v7 (ix2 i j) = ix2 (0 : Fin 1) j := by idx_eq
theorem i5 : idx_main_v5 (ix2 (0 : Fin 1) j) = ix1 j := by idx_eq
theorem i4 : idx_main_v4 (ix1 j) k = ix2 j k := by idx_eq
theorem l10 : lidx_main_v10 (ix2 i j) k = ix2 i k := by idx_eq
theorem r10 : ridx_main_v10 (ix2 i j) k = ix2 k j := by idx_eq
theorem i9 : idx_main_v9 (ix2 k j) = ix2 j k := by idx_eq
theorem i20 : idx_main_v20 (ix2 i j) = ix2 (0 : Fin 1) j := by idx_eq
theorem i19 : idx_main_v19 (ix2 (0 : Fin 1) j) = ix1 j := by idx_eq

/-- The reference's result, as a function of its five arguments, is the radial-basis layer: entry `(i, s)` is
    `∑ⱼ exp(−dist(i, j) / (σⱼ · σⱼ)) · W(s, j) + b(s)`, the two squared norms and the inner product read as plain sums
    (the host sums start from the zero word, which adds nothing). -/
theorem val_eq_rbfOut (x0 : S1024x12288.Idx → EReal) (x1 : S209x12288.Idx → EReal) (x2 : S209.Idx → EReal)
    (x3 : S2x209.Idx → EReal) (x4 : S2.Idx → EReal) :
    val_main_v27 (F := Ideal) x0 x1 x2 x3 x4 = Cert.Rbf.rbfOut x0 x1 x2 x3 x4 := by
  funext o
  obtain ⟨i, s, rfl⟩ : ∃ (i : Fin 1024) (s : Fin 2), o = ix2 i s := ⟨o 0, o 1, eq_ix2 o⟩
  rw [val_main_v27_apply, val_main_v24_apply, val_main_v26_apply, val_main_v25_apply]
  simp only [l24, r24, i26, i25, val_main_v23_apply, i23, val_main_v22_apply, val_main_v21_apply, val_main_v17_apply,
    val_main_v16_apply, val_main_v15_apply, val_main_v13_apply, val_main_v8_apply, val_main_v12_apply,
    val_main_v6_apply, i6, val_main_v2_apply, i2, val_main_v1_apply, i1, val_main_v0_apply, val_main_cst_apply,
    val_main_v7_apply, i7, val_main_v5_apply, i5, val_main_v4_apply, i4, val_main_v3_apply, val_main_cst_0_apply,
    val_main_v10_apply, l10, r10, val_main_v9_apply, i9, val_main_v11_apply, val_main_cst_1_apply,
    val_main_v14_apply, val_main_cst_2_apply, val_main_v20_apply, i20, val_main_v19_apply, i19, val_main_v18_apply,
    Ideal.ofBits_def, Ideal.addf_def, Ideal.mulf_def, Ideal.subf_def, Ideal.maximumf_def, Ideal.hostUnary_sqrt_def,
    Ideal.hostUnary_exp_def, Ideal.hostNegf_def, Ideal.negf_def, Ideal.hostDivf_def, Ideal.ofBits_zero_f32, zero_add]
  rfl

end Cert.Rbf.Ref

end
-- ==== Proof.HostArrays.lean ====
/-
  The arrays the kernel's region finds: what the host operations before it wrote, read at an entry.

  Before the region the host pads the 209 centres to 256 rows with zero rows, takes the padded centres' squared
  norms as a row of 256, forms `1 / (σ · σ)` and pads it to 256 columns with ones, pads the weights to 256 columns
  with zeros, and lays the bias as a row. So, for a column `j < 209`:

    centres(j, k) = c(j, k)        norms(0, j) = ∑ₖ c(j, k)²        factor(0, j) = 1 / (σⱼ · σⱼ)        weights(s, j) = W(s, j)

  and for a padding column `j ≥ 209` the weights are zero: `weights(s, j) = 0`. The bias row is `bias(0, s) = b(s)`.
  (What the other rows hold at a padding column is not needed: a zero weight removes that column's term.)
-/
import proofs.«116189_j57715770523862_2_alg».proof.Proof.Gen.KernelIdeal.Frame
import Idealize.ShloMosaic.Lib.StableHlo.Run
import Idealize.ShloMosaic.Lib.KernelVsHost
import Idealize.ShloMosaic.Lib.ValueLayout
import Idealize.ShloMosaic.PureOps.Ideal.Laws

noncomputable section

open scoped BigOperators

namespace Cert.Rbf.HostArrays

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The five arguments as launched on core `c`. -/
abbrev argX : S1024x12288.Idx → EReal := m ((c : Thread nD τ).loc main_arg0)
abbrev argC : S209x12288.Idx → EReal := m ((c : Thread nD τ).loc main_arg1)
abbrev argSigma : S209.Idx → EReal := m ((c : Thread nD τ).loc main_arg2)
abbrev argW : S2x209.Idx → EReal := m ((c : Thread nD τ).loc main_arg3)
abbrev argB : S2.Idx → EReal := m ((c : Thread nD τ).loc main_arg4)

/-- Reads an array off the host operations before the region: each operation's result at its own buffer. -/
local macro "host_prefix" : tactic => `(tactic| (
  dsimp only [V]
  simp only [hostOps0, hostOps0_1, hostOps0_2, hostOps0_3, hostOps0_4, hostOps0_5, hostOps0_6, List.flatten_cons,
    List.flatten_nil, List.append_nil, List.cons_append, List.nil_append]
  after_results
  rfl))

/-- The centres padded to 256 rows with zero rows. -/
def centresPadded : S256x12288.Idx → EReal :=
  pad S256x12288 ![0, 0] ![47, 0] ![0, 0] (argC m c) (sitofp (F := Ideal) .f32 (constantI S_ 32 0#32))
    pads_S209x12288_S256x12288_0470_000 h_S_

/-- A padded centre row below 209 is the centre row. -/
theorem centresPadded_in (j : Fin 209) (k : Fin 12288) :
    centresPadded m c (ix2 (⟨j.val, by omega⟩ : Fin 256) k) = argC m c (ix2 j k) :=
  pad_apply_of_inside _ _ _ _ _ _ _ _ (ix2 j k) fun a => by
    match a with
    | ⟨0, _⟩ => show j.val = 0 + j.val * (0 + 1); omega
    | ⟨1, _⟩ => show k.val = 0 + k.val * (0 + 1); omega

/-- The centres window's array (a change of float format, the identity here, of the padded centres) at a row below 209. -/
theorem centres_in (j : Fin 209) (k : Fin 12288) :
    (V m c main_v1 : S256x12288.Idx → EReal) (ix2 (⟨j.val, by omega⟩ : Fin 256) k) = argC m c (ix2 j k) := by
  have e : (V m c main_v1 : S256x12288.Idx → EReal)
      = truncf (F := Ideal) (φ := .f32) .bf16 (centresPadded m c) bitsLt_bf16_f32 := by
    unfold centresPadded; host_prefix
  rw [e]
  exact centresPadded_in m c j k

/-- The host's sum of a [256, 12288] array over its second axis from the zero word, at row `j`. -/
theorem hostRowSum (y : S256x12288.Idx → EReal) (j : Fin 256) :
    Host.reduceAdd (F := Ideal) (φ := .f32) y (constant (F := Ideal) S_ .f32 0x00000000#32)
        reducesTo_S256x12288_S256_d1 h_S_ (ix1 j)
      = ∑ k : Fin 12288, y (ix2 j k) := by
  simp only [Host.reduceAdd, Ideal.hostReduceAdd_def]
  rw [Ideal.hostReduceAdd_single reducesTo_S256x12288_S256_d1 (by decide)]
  refine (congrArg (· + _) (show (constant (F := Ideal) S_ .f32 0x00000000#32) (Shape.Idx.first h_S_) = 0 from
    Ideal.ofBits_zero_f32)).trans ((zero_add _).trans ?_)
  exact Finset.sum_congr rfl fun k _ => congrArg y (funext fun a => Fin.ext (by
    match a with
    | ⟨0, _⟩ => rfl
    | ⟨1, _⟩ => rfl))

/-- The squared-norm row at a column below 209: the centre's squared norm. -/
theorem norms_in (j : Fin 209) :
    (V m c main_v4 : S1x256.Idx → EReal) (ix2 (0 : Fin 1) (⟨j.val, by omega⟩ : Fin 256))
      = ∑ k : Fin 12288, argC m c (ix2 j k) * argC m c (ix2 j k) := by
  have e : (V m c main_v4 : S1x256.Idx → EReal)
      = shapeCast S1x256 (Host.reduceAdd (F := Ideal) (φ := .f32)
          (mulf (F := Ideal) (φ := .f32) (centresPadded m c) (centresPadded m c))
          (constant (F := Ideal) S_ .f32 0x00000000#32) reducesTo_S256x12288_S256_d1 h_S_) shapeCasts_S256_S1x256 := by
    unfold centresPadded; host_prefix
  rw [e]
  refine (shapeCast_a_1a_apply _ _ (0 : Fin 1) (⟨j.val, by omega⟩ : Fin 256)).trans ?_
  refine (hostRowSum _ _).trans (Finset.sum_congr rfl fun k _ => ?_)
  show centresPadded m c _ * centresPadded m c _ = _
  rw [centresPadded_in]

/-- The per-column factor at a column below 209: `1 / (σⱼ · σⱼ)`, the `1` as its float word. -/
theorem factor_in (j : Fin 209) :
    (V m c main_v9 : S1x256.Idx → EReal) (ix2 (0 : Fin 1) (⟨j.val, by omega⟩ : Fin 256))
      = Ideal.div (Ideal.ofBits .f32 0x3F800000#32) (argSigma m c (ix1 j) * argSigma m c (ix1 j)) := by
  have e : (V m c main_v9 : S1x256.Idx → EReal)
      = shapeCast S1x256 (pad S256 ![0] ![47] ![0]
          (Host.divf (F := Ideal) (φ := .f32) (broadcastInDim S209 ![] bcast_S_S209 (constant (F := Ideal) S_ .f32 0x3F800000#32))
            (mulf (F := Ideal) (φ := .f32) (argSigma m c) (argSigma m c)))
          (constant (F := Ideal) S_ .f32 0x3F800000#32) pads_S209_S256_0470 h_S_) shapeCasts_S256_S1x256 := by
    host_prefix
  rw [e]
  refine (shapeCast_a_1a_apply _ _ (0 : Fin 1) (⟨j.val, by omega⟩ : Fin 256)).trans ?_
  refine (pad_apply_of_inside _ _ _ _ _ _ _ _ (ix1 j) fun a => by
    match a with
    | ⟨0, _⟩ => show j.val = 0 + j.val * (0 + 1); omega).trans ?_
  rfl

/-- The padded weights: the weights at a column below 209 … -/
theorem weights_in (s : Fin 2) (j : Fin 209) :
    (V m c main_v10 : S2x256.Idx → EReal) (ix2 s (⟨j.val, by omega⟩ : Fin 256)) = argW m c (ix2 s j) := by
  have e : (V m c main_v10 : S2x256.Idx → EReal)
      = pad S2x256 ![0, 0] ![0, 47] ![0, 0] (argW m c) (sitofp (F := Ideal) .f32 (constantI S_ 32 0#32))
          pads_S2x209_S2x256_000_0470 h_S_ := by
    host_prefix
  rw [e]
  exact pad_apply_of_inside _ _ _ _ _ _ _ _ (ix2 s j) fun a => by
    match a with
    | ⟨0, _⟩ => show s.val = 0 + s.val * (0 + 1); omega
    | ⟨1, _⟩ => show j.val = 0 + j.val * (0 + 1); omega

/-- … and zero at a padding column. -/
theorem weights_out (s : Fin 2) (j : Fin 256) (hj : 209 ≤ j.val) :
    (V m c main_v10 : S2x256.Idx → EReal) (ix2 s j) = (0 : EReal) := by
  have e : (V m c main_v10 : S2x256.Idx → EReal)
      = pad S2x256 ![0, 0] ![0, 47] ![0, 0] (argW m c) (sitofp (F := Ideal) .f32 (constantI S_ 32 0#32))
          pads_S2x209_S2x256_000_0470 h_S_ := by
    host_prefix
  rw [e]
  refine (pad_apply_of_not_inside _ _ _ _ _ _ _ (ix2 s j) (1 : Fin 2) fun hin => ?_).trans (sitofp_zero (φ := .f32))
  have h3 : (j.val - 0) / (0 + 1) < 209 := hin.2.2
  omega

/-- The bias row: `bias(0, s) = b(s)`. -/
theorem bias_at (s : Fin 2) :
    (V m c main_v11 : S1x2.Idx → EReal) (ix2 (0 : Fin 1) s) = argB m c (ix1 s) := by
  have e : (V m c main_v11 : S1x2.Idx → EReal) = shapeCast S1x2 (argB m c) shapeCasts_S2_S1x2 := by
    host_prefix
  rw [e]
  exact shapeCast_a_1a_apply _ _ (0 : Fin 1) s

end Cert.Rbf.HostArrays

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.BodyValue.lean ====
/-
  What the kernel body computes from its six input blocks, entry by entry, on the extended reals.

  The body holds 128 rows of the batch (`x0`), the padded centres as 256 rows (`x1`), and three rows of 256 columns:
  the centres' squared norms (`x2`), a per-column factor (`x3`) and, as two rows, the output weights (`x4`); and a
  bias row (`x5`). At entry `(p, s)` it stores

    ∑ⱼ exp((0 − √ max(‖x0ₚ‖² + x2(0, j) − 2 · ⟨x0ₚ, x1ⱼ⟩, 0)) · x3(0, j)) · x4(s, j) + x5(0, s),   j over the 256 columns:

  the row's squared norm is a lane sum kept as a column and spread along the row, the inner products are a matrix
  product with the transposed centres into the zero accumulator, the three rows are spread down the 128 rows, and
  the sum over `j` is a second matrix product with the transposed weights into the zero accumulator. Changing the
  float format of an operand is the identity on the extended reals.
-/
import proofs.«116189_j57715770523862_2_alg».proof.Proof.Gen.KernelIdeal.Skeleton
import proofs.«116189_j57715770523862_2_alg».proof.Proof.RbfSpec
import proofs.«116189_j57715770523862_2_alg».proof.Proof.LibPlainDot
import proofs.«116189_j57715770523862_2_alg».proof.Proof.LibKeepdims
import Idealize.ShloMosaic.Lib.ValueLayout
import Idealize.ShloMosaic.Lib.Pipeline.Value

noncomputable section

open scoped BigOperators

namespace Cert.Rbf.Body

open Cert.KernelIdeal Cert.KernelIdeal.Gen Idealize.ShloMosaic Idealize.ShloMosaic.ValueIdx
open Idealize.ShloMosaic.ValueKeepdims

/-- The body's result at entry `(p, s)`, as a function of the six blocks. -/
def blockOut (x0 : S128x12288.Idx → EReal) (x1 : S256x12288.Idx → EReal) (x2 x3 : S1x256.Idx → EReal)
    (x4 : S2x256.Idx → EReal) (x5 : S1x2.Idx → EReal) (p : Fin 128) (s : Fin 2) : EReal :=
  (∑ j : Fin 256,
      Ideal.exp ((0 - distOf (sqNorm x0 p) (x2 (ix2 (0 : Fin 1) j)) (rowDot x0 x1 p j)) * x3 (ix2 (0 : Fin 1) j))
        * x4 (ix2 s j))
    + x5 (ix2 (0 : Fin 1) s)

/-- The exponential and the root act entry by entry. -/
theorem exp_apply {S : Shape} (v : FVec Ideal S .f32) (i : S.Idx) : exp v i = Ideal.exp (v i) := rfl
theorem sqrt_apply {S : Shape} (v : FVec Ideal S .f32) (i : S.Idx) : sqrt v i = Ideal.sqrt (v i) := rfl

/-- The first matrix product, [128, 12288] by [12288, 256] into the zero accumulator, at `(p, j)`. -/
theorem product1 (A : FVec Ideal S128x12288 .bf16) (B : FVec Ideal S12288x256 .bf16) (p : Fin 128) (j : Fin 256) :
    matmul dot_S128x12288_S12288x256_S128x256_1_0_0_1_n_n none A B (constant S128x256 .f32 0x00000000#32) (ix2 p j)
      = ∑ k : Fin 12288, A (ix2 p k) * B (ix2 k j) :=
  Cert.Lib.PlainDot.matmul_zero_apply none A B p j

/-- The second matrix product, [128, 256] by [256, 2] into the zero accumulator, at `(p, s)`. -/
theorem product2 (A : FVec Ideal S128x256 .f32) (B : FVec Ideal S256x2 .f32) (p : Fin 128) (s : Fin 2) :
    matmul dot_S128x256_S256x2_S128x2_1_0_0_1_n_n (some .fp32) A B (constant S128x2 .f32 0x00000000#32) (ix2 p s)
      = ∑ j : Fin 256, A (ix2 p j) * B (ix2 j s) :=
  Cert.Lib.PlainDot.matmul_zero_apply (some .fp32) A B p s

/-- The body's payload at entry `(p, s)` is `blockOut` of the six blocks: the pointwise operations, the two
    products, the casts and the spreads are read at the entry first; what is left is the row's lane sum (the sum of
    the row's squares) and the two transposes (the centres at `(j, k)`, the weights at `(s, j)`), each in its place. -/
theorem pay_apply (x0 : Vec Ideal S128x12288 .f32) (x1 : Vec Ideal S256x12288 .bf16) (x2 x3 : Vec Ideal S1x256 .f32)
    (x4 : Vec Ideal S2x256 .f32) (x5 : Vec Ideal S1x2 .f32) (p : Fin 128) (s : Fin 2) :
    k0_pay1 (F := Ideal) x0 x1 x2 x3 x4 x5 (ix2 p s) = blockOut x0 x1 x2 x3 x4 x5 p s := by
  unfold k0_pay1 blockOut distOf sqNorm rowDot
  simp only [addf_apply, product2, exp_apply, mulf_apply, subf_apply, sqrt_apply, maximumf_apply, broadcast_apply,
    product1, truncf_apply, shapeCast_self, broadcastTo_a1_ab_apply, shapeCast_a_a1_apply, broadcastTo_1b_ab_apply,
    Ideal.ofBits_def, Ideal.ofBits_zero_f32]
  refine congrArg (· + x5 (ix2 (0 : Fin 1) s)) (Finset.sum_congr rfl fun j _ => ?_)
  refine congrArg₂ (· * ·) ?_ (transpose_ix2_apply x4 _ j s)
  refine congrArg (fun u => Ideal.exp ((0 - Ideal.sqrt (max u 0)) * x3 (ix2 (0 : Fin 1) j))) ?_
  refine congrArg₂ (fun a b => a + x2 (ix2 (0 : Fin 1) j) - Ideal.ofBits .f32 0x40000000#32 * b) ?_ ?_
  · exact multiReduction_add_row (mulf (F := Ideal) (φ := .f32) x0 x0) _ _ _ _ p
  · exact Finset.sum_congr rfl fun k _ => congrArg (x0 (ix2 p k) * ·) (transpose_ix2_apply x1 _ k j)

end Cert.Rbf.Body

end
-- ==== Proof.LibReciprocalPadding.lean ====
/-
  Two laws of the extended reals for a computation that multiplies by a precomputed reciprocal and pads a
  contracted axis with zero weights, against one that divides and does not pad.

  * Multiplying by the reciprocal: for `y ≠ 0` the quotient `x / y` is `x · y⁻¹`, and `1 / y` is `y⁻¹`, so
    `(0 − d) · (1 / y) = (−d) / y` for EVERY extended real `d` — no finiteness of `d` or `y` is used. At `y = 0` the two
    sides differ (`0 · (1/0) = 0 · ⊤ = 0` against the junk value of `0 / 0`), which is why `y ≠ 0` is assumed.
  * A square is nonzero when its root is: the extended reals have no zero divisors.
  * Padding columns: a sum over `n + k` columns whose last `k` weights are zero is the sum over the first `n`;
    a product with the weight zero is zero whatever the other factor is.
-/
import Idealize.ShloMosaic.PureOps.Ideal.Laws
import Mathlib.Algebra.BigOperators.Fin

noncomputable section

open scoped BigOperators

namespace Cert.Lib.ReciprocalPadding

open Idealize.ShloMosaic

/-- The f32 word of `1.0`: exponent field 127, fraction 0, that is `2²³ · 2⁻²³`. -/
theorem ofBits_one_f32 : Ideal.ofBits .f32 0x3F800000#32 = 1 := by
  simp [Ideal.ofBits, Ideal.ieee]
  exact_mod_cast (by norm_num : ((8388608 : ℝ)) * ((2 : ℝ) ^ 23)⁻¹ = 1)

/-- `(0 − d) · (1 / y) = (−d) / y` on the extended reals, for a divisor other than zero. -/
theorem neg_mul_recip (d y : EReal) (hy : y ≠ 0) :
    (0 - d) * Ideal.div (Ideal.ofBits .f32 0x3F800000#32) y = Ideal.div (-d) y := by
  rw [zero_sub, ofBits_one_f32, Ideal.div, if_neg hy, Ideal.div, if_neg hy, one_mul]

/-- A nonzero extended real has a nonzero square. -/
theorem mul_self_ne_zero' (a : EReal) (h : a ≠ 0) : a * a ≠ 0 := mul_ne_zero h h

/-- A weighted sum over `n + k` columns whose last `k` weights vanish is the weighted sum over the first `n`. -/
theorem sum_padded {n k : ℕ} (f w : Fin (n + k) → EReal) (hw : ∀ j : Fin k, w (Fin.natAdd n j) = 0) :
    ∑ j, f j * w j = ∑ j : Fin n, f (Fin.castAdd k j) * w (Fin.castAdd k j) := by
  rw [Fin.sum_univ_add]
  have h0 : ∑ j : Fin k, f (Fin.natAdd n j) * w (Fin.natAdd n j) = 0 :=
    Finset.sum_eq_zero fun j _ => by rw [hw j, mul_zero]
  rw [h0, add_zero]

/-- The same for 209 columns padded to 256, the columns named by their number. -/
theorem sum_256_209 (f w : Fin 256 → EReal) (hw : ∀ j : Fin 256, 209 ≤ j.val → w j = 0) :
    ∑ j : Fin 256, f j * w j
      = ∑ j : Fin 209, f (⟨j.val, by omega⟩ : Fin 256) * w (⟨j.val, by omega⟩ : Fin 256) :=
  sum_padded (n := 209) (k := 47) f w fun j => hw _ (by simp [Fin.natAdd])

end Cert.Lib.ReciprocalPadding

end
-- ==== Proof.BlockIsRbf.lean ====
/-
  The kernel body's result on its blocks is the radial-basis layer's output, when every width is nonzero.

  Given what the six blocks hold —

    x0(p, k) = x(i, k)                         row `p` of the batch block is row `i` of the batch
    x1(j, k) = c(j, k)                 (j < 209)
    x2(0, j) = ∑ₖ c(j, k)²             (j < 209)
    x3(0, j) = 1 / (σⱼ · σⱼ)           (j < 209)
    x4(s, j) = W(s, j)  (j < 209),     x4(s, j) = 0  (209 ≤ j < 256)
    x5(0, s) = b(s)

  — the body's `∑_{j < 256} exp((0 − dist) · x3(0, j)) · x4(s, j) + x5(0, s)` is the layer's
  `∑_{j < 209} exp(−dist / (σⱼ · σⱼ)) · W(s, j) + b(s)`: the 47 padding columns carry a zero weight and drop out, and
  on each remaining column `(0 − d) · (1 / y) = (−d) / y` since `y = σⱼ · σⱼ ≠ 0`.
-/
import proofs.«116189_j57715770523862_2_alg».proof.Proof.BodyValue
import proofs.«116189_j57715770523862_2_alg».proof.Proof.LibReciprocalPadding

noncomputable section

open scoped BigOperators

namespace Cert.Rbf.Body

open Cert.KernelIdeal Idealize.ShloMosaic Idealize.ShloMosaic.ValueIdx
open Cert.Lib

theorem blockOut_eq_rbfOut
    (X : (⟨2, ![1024, 12288]⟩ : Shape).Idx → EReal) (C : (⟨2, ![209, 12288]⟩ : Shape).Idx → EReal)
    (σ : (⟨1, ![209]⟩ : Shape).Idx → EReal) (W : (⟨2, ![2, 209]⟩ : Shape).Idx → EReal)
    (B : (⟨1, ![2]⟩ : Shape).Idx → EReal)
    (x0 : S128x12288.Idx → EReal) (x1 : S256x12288.Idx → EReal) (x2 x3 : S1x256.Idx → EReal)
    (x4 : S2x256.Idx → EReal) (x5 : S1x2.Idx → EReal) (i : Fin 1024) (p : Fin 128) (s : Fin 2)
    (h0 : ∀ k : Fin 12288, x0 (ix2 p k) = X (ix2 i k))
    (h1 : ∀ (j : Fin 209) (k : Fin 12288), x1 (ix2 (⟨j.val, by omega⟩ : Fin 256) k) = C (ix2 j k))
    (h2 : ∀ j : Fin 209, x2 (ix2 (0 : Fin 1) (⟨j.val, by omega⟩ : Fin 256)) = ∑ k : Fin 12288, C (ix2 j k) * C (ix2 j k))
    (h3 : ∀ j : Fin 209, x3 (ix2 (0 : Fin 1) (⟨j.val, by omega⟩ : Fin 256))
      = Ideal.div (Ideal.ofBits .f32 0x3F800000#32) (σ (ix1 j) * σ (ix1 j)))
    (h4 : ∀ j : Fin 209, x4 (ix2 s (⟨j.val, by omega⟩ : Fin 256)) = W (ix2 s j))
    (h4' : ∀ j : Fin 256, 209 ≤ j.val → x4 (ix2 s j) = 0)
    (h5 : x5 (ix2 (0 : Fin 1) s) = B (ix1 s))
    (hσ : ∀ j : Fin 209, σ (ix1 j) ≠ 0) :
    blockOut x0 x1 x2 x3 x4 x5 p s = rbfOut X C σ W B (ix2 i s) := by
  unfold blockOut
  refine (congrArg (· + x5 (ix2 (0 : Fin 1) s)) (ReciprocalPadding.sum_256_209
    (fun j => Ideal.exp ((0 - distOf (sqNorm x0 p) (x2 (ix2 (0 : Fin 1) j)) (rowDot x0 x1 p j)) * x3 (ix2 (0 : Fin 1) j)))
    (fun j => x4 (ix2 s j)) h4')).trans ?_
  rw [h5]
  show _ = (∑ j : Fin 209, radial X C σ i j * W (ix2 s j)) + B (ix1 s)
  refine congrArg (· + B (ix1 s)) (Finset.sum_congr rfl fun j _ => ?_)
  show Ideal.exp ((0 - distOf (sqNorm x0 p) (x2 (ix2 (0 : Fin 1) (⟨j.val, by omega⟩ : Fin 256)))
        (rowDot x0 x1 p (⟨j.val, by omega⟩ : Fin 256))) * x3 (ix2 (0 : Fin 1) (⟨j.val, by omega⟩ : Fin 256)))
      * x4 (ix2 s (⟨j.val, by omega⟩ : Fin 256)) = radial X C σ i j * W (ix2 s j)
  have e0 : sqNorm x0 p = sqNorm X i := Finset.sum_congr rfl fun k _ => by rw [h0 k]
  have e1 : rowDot x0 x1 p (⟨j.val, by omega⟩ : Fin 256) = rowDot X C i j :=
    Finset.sum_congr rfl fun k _ => by rw [h0 k, h1 j k]
  rw [h4 j, h3 j, h2 j, e0, e1, ReciprocalPadding.neg_mul_recip _ _ (ReciprocalPadding.mul_self_ne_zero' _ (hσ j))]
  rfl

end Cert.Rbf.Body

end
-- ==== Proof.KernelIsRbf.lean ====
/-
  The kernel's result array is the radial-basis layer's output, when every width is nonzero.

  The grid has 8 points. Point `t` holds rows `128 t … 128 t + 127` of the batch (window 0 moves down the batch with
  the point) and writes rows `128 t … 128 t + 127` of the result (window 6 moves with it); the other five windows hold
  their whole arrays at every point. So entry `(p, s)` of what point `t` writes back is the body's result on
  `x0(p, ·) = x(128 t + p, ·)` and the five whole arrays, which is the layer's output at `(128 t + p, s)`. Row `r` of
  the result lies in the block of point `r / 128`: the 8 blocks cover the array, which therefore ends holding the
  layer's output everywhere.
-/
import proofs.«116189_j57715770523862_2_alg».proof.Proof.Gen.KernelIdeal.Value
import proofs.«116189_j57715770523862_2_alg».proof.Proof.HostArrays
import proofs.«116189_j57715770523862_2_alg».proof.Proof.BlockIsRbf

noncomputable section

open scoped BigOperators

namespace Cert.Rbf.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.Rbf.HostArrays

variable (m : (ℓ : Loc nD τ sig) → Buf (Elt Ideal) ℓ) (ρ : Dev nD → PrngReg)

/-- The layer's output of the five arguments as launched on core `c`. -/
abbrev layer (c : Dev nD) : S1024x2.Idx → EReal :=
  rbfOut (argX m c) (argC m c) (argSigma m c) (argW m c) (argB m c)

theorem zeroOffsets : (![0, 0] : Fin 2 → Nat) = fun _ => 0 := funext fun a => by fin_cases a <;> rfl

/-- The index maps over the grid: the batch window and the result window are at block row `t`, every other window
    at its one block. -/
theorem indexMaps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer's output. -/
theorem flushed_eq (c : Dev nD) (hσ : ∀ j : Fin 209, argSigma m c (ix1 j) ≠ 0) (t : Fin cfg0.N) :
    (dats m 0 c).flushed 6 t = ((cfg0.win 6).blk t).view.read (Elt Ideal) (layer m c) := by
  rw [Cert.KernelIdeal.Value.flushed6]
  unfold out0_6
  rw [View.canon_unit_zero zeroOffsets]
  simp only [View.ld_unit_zero (S := S128x12288) zeroOffsets, View.ld_unit_zero (S := S256x12288) zeroOffsets,
    View.ld_unit_zero (S := S1x256) zeroOffsets, View.ld_unit_zero (S := S2x256) zeroOffsets,
    View.ld_unit_zero (S := S1x2) zeroOffsets]
  obtain ⟨e00, e01, e10, e11, e20, e21, e30, e31, e40, e41, e50, e51, e60, e61⟩ := indexMaps t
  have ht : t.val < 8 := by have h := t.isLt; have hN : cfg0.N = 8 := N_0; omega
  funext y
  obtain ⟨p, s, rfl⟩ : ∃ (p : Fin 128) (s : Fin 2), y = ix2 p s := ⟨y 0, y 1, eq_ix2 y⟩
  have hp : p.val < 128 := p.isLt
  have hs : s.val < 2 := s.isLt
  have hemb : ((cfg0.win 6).blk t).view.emb (ix2 p s) = ix2 (⟨t.val * 128 + p.val, by omega⟩ : Fin 1024) s := by
    funext a; apply Fin.ext
    match a with
    | ⟨0, _⟩ => show win0_6.index t (0 : Fin 2) * 128 + 1 * p.val = t.val * 128 + p.val; omega
    | ⟨1, _⟩ => show win0_6.index t (1 : Fin 2) * 2 + 1 * s.val = s.val; omega
  show k0_pay1 (F := Ideal) (iblk m c 0 t) (iblk m c 1 t) (iblk m c 2 t) (iblk m c 3 t) (iblk m c 4 t) (iblk m c 5 t) (ix2 p s)
      = layer m c (((cfg0.win 6).blk t).view.emb (ix2 p s))
  rw [hemb]
  refine (Body.pay_apply _ _ _ _ _ _ p s).trans ?_
  refine Body.blockOut_eq_rbfOut (argX m c) (argC m c) (argSigma m c) (argW m c) (argB m c) _ _ _ _ _ _
    (⟨t.val * 128 + p.val, by omega⟩ : Fin 1024) p s ?_ ?_ ?_ ?_ ?_ ?_ ?_ hσ
  · intro k
    have hk : k.val < 12288 := k.isLt
    show V m c main_arg0 (((cfg0.win 0).blk t).view.emb (ix2 p k)) = argX m c (ix2 _ k)
    rw [V_main_arg0]
    refine congrArg _ (funext fun a => Fin.ext ?_)
    match a with
    | ⟨0, _⟩ => show win0_0.index t (0 : Fin 2) * 128 + 1 * p.val = t.val * 128 + p.val; omega
    | ⟨1, _⟩ => show win0_0.index t (1 : Fin 2) * 12288 + 1 * k.val = k.val; omega
  · intro j k
    refine Eq.trans ?_ (centres_in m c j k)
    show V m c main_v1 (((cfg0.win 1).blk t).view.emb (ix2 (⟨j.val, by omega⟩ : Fin 256) k))
        = V m c main_v1 (ix2 (⟨j.val, by omega⟩ : Fin 256) k)
    refine congrArg _ (funext fun a => Fin.ext ?_)
    match a with
    | ⟨0, _⟩ => show win0_1.index t (0 : Fin 2) * 256 + 1 * j.val = j.val; omega
    | ⟨1, _⟩ => show win0_1.index t (1 : Fin 2) * 12288 + 1 * k.val = k.val; omega
  · intro j
    refine Eq.trans ?_ (norms_in m c j)
    show V m c main_v4 (((cfg0.win 2).blk t).view.emb (ix2 (0 : Fin 1) (⟨j.val, by omega⟩ : Fin 256)))
        = V m c main_v4 (ix2 (0 : Fin 1) (⟨j.val, by omega⟩ : Fin 256))
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * j.val = j.val; omega
  · intro j
    refine Eq.trans ?_ (factor_in m c j)
    show V m c main_v9 (((cfg0.win 3).blk t).view.emb (ix2 (0 : Fin 1) (⟨j.val, by omega⟩ : Fin 256)))
        = V m c main_v9 (ix2 (0 : Fin 1) (⟨j.val, by omega⟩ : Fin 256))
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * j.val = j.val; omega
  · intro j
    refine Eq.trans ?_ (weights_in m c s j)
    show V m c main_v10 (((cfg0.win 4).blk t).view.emb (ix2 s (⟨j.val, by omega⟩ : Fin 256)))
        = V m c main_v10 (ix2 s (⟨j.val, by omega⟩ : Fin 256))
    refine congrArg _ (funext fun a => Fin.ext ?_)
    match a with
    | ⟨0, _⟩ => show win0_4.index t (0 : Fin 2) * 2 + 1 * s.val = s.val; omega
    | ⟨1, _⟩ => show win0_4.index t (1 : Fin 2) * 256 + 1 * j.val = j.val; omega
  · intro j hj
    have hj' : j.val < 256 := j.isLt
    refine Eq.trans ?_ (weights_out m c s j hj)
    show V m c main_v10 (((cfg0.win 4).blk t).view.emb (ix2 s j)) = V m c main_v10 (ix2 s j)
    refine congrArg _ (funext fun a => Fin.ext ?_)
    match a with
    | ⟨0, _⟩ => show win0_4.index t (0 : Fin 2) * 2 + 1 * s.val = s.val; omega
    | ⟨1, _⟩ => show win0_4.index t (1 : Fin 2) * 256 + 1 * j.val = j.val; omega
  · refine Eq.trans ?_ (bias_at m c s)
    show V m c main_v11 (((cfg0.win 5).blk t).view.emb (ix2 (0 : Fin 1) s)) = V m c main_v11 (ix2 (0 : Fin 1) s)
    refine congrArg _ (funext fun a => Fin.ext ?_)
    match a with
    | ⟨0, _⟩ => show win0_5.index t (0 : Fin 2) * 1 + 1 * 0 = 0; omega
    | ⟨1, _⟩ => show win0_5.index t (1 : Fin 2) * 2 + 1 * s.val = s.val; omega

/-- An index of the result array is in point `t`'s block iff each coordinate is in the block's range on its axis. -/
theorem mem_block (t : Fin cfg0.N) (i : S1024x2.Idx) :
    i ∈ ((cfg0.win 6).blk t).view.set ↔ ∀ a : Fin 2,
      win0_6.index t a * S128x2.size a ≤ (i a).val ∧ (i a).val < win0_6.index t a * S128x2.size a + S128x2.size a := by
  show i ∈ ((View.whole main_v12).slice (win0_6.rect t)).set ↔ _
  rw [View.set_slice_whole, Rect.mem_set_unit]
  exact Iff.rfl

/-- Every index of the result array is in the block of the point its row falls in. -/
theorem covered (i : S1024x2.Idx) :
    ∃ t : Fin cfg0.N, (cfg0.win 6).flush t = true ∧ i ∈ ((cfg0.win 6).blk t).view.set := by
  have hi0 : (i 0).val < 1024 := (i 0).isLt
  have hi1 : (i 1).val < 2 := (i 1).isLt
  have hN : cfg0.N = 8 := N_0
  obtain ⟨t, ht⟩ : ∃ t : Fin cfg0.N, t.val = (i 0).val / 128 := ⟨⟨(i 0).val / 128, by omega⟩, rfl⟩
  obtain ⟨-, -, -, -, -, -, -, -, -, -, -, -, e60, e61⟩ := indexMaps t
  refine ⟨t, flush0_6 t, ?_⟩
  rw [mem_block]
  intro a
  match a with
  | ⟨0, _⟩ =>
    show win0_6.index t (0 : Fin 2) * 128 ≤ (i 0).val ∧ (i 0).val < win0_6.index t (0 : Fin 2) * 128 + 128
    omega
  | ⟨1, _⟩ =>
    show win0_6.index t (1 : Fin 2) * 2 ≤ (i 1).val ∧ (i 1).val < win0_6.index t (1 : Fin 2) * 2 + 2
    omega

/-- The result array after the run is the layer's output. -/
theorem final (c : Dev nD) (hσ : ∀ j : Fin 209, argSigma m c (ix1 j) ≠ 0) :
    (dats m 0 c).arrAt 6 cfg0.N = layer m c :=
  (dats m 0 c).arrAt_eq_of_cover 6 (layer m c) (fun t _ => flushed_eq m c hσ t) covered

/-- The kernel's run, when every width on every core is nonzero: it ends with the result array at the layer's output
    of the arguments, the arguments unchanged. -/
theorem run (hσ : ∀ (c : Dev nD) (j : Fin 209), argSigma m c (ix1 j) ≠ 0) :
    θ_run defs (onTc (τ := τ) (main (F := Ideal))) ⟨m, fun _ => 0, ρ⟩ fun r => ∀ c : Dev nD,
      r.2.mem ((c : Thread nD τ).loc main_v12) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hσ c)), (h c).2⟩)
    (Cert.KernelIdeal.Value.run_blocks m ρ)

end Cert.Rbf.Kernel

end
-- ==== Proof.WidthsNonzero.lean ====
/-
  What the precondition gives: every width is nonzero.

  The precondition is the conjunction of "every entry of every argument is finite" with "every width σⱼ is other
  than zero", each conjunct a reduction by `and` over a comparison at every entry. Its last conjunct, read at entry
  `j`, is the comparison `σⱼ ≠ 0` on the extended reals.
-/
import proofs.«116189_j57715770523862_2_alg».proof.Pre_finite_inputs
import proofs.«116189_j57715770523862_2_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Rbf.Widths

open Cert.Pre_finite_inputs Idealize.ShloMosaic Idealize.ShloMosaic.ValueIdx

instance : Subsingleton S_.Idx := ⟨fun a b => funext fun d => d.elim0⟩

/-- Under the precondition every width is nonzero. -/
theorem ne_zero (a0 : S1024x12288.Idx → EReal) (a1 : S209x12288.Idx → EReal) (a2 : S209.Idx → EReal)
    (a3 : S2x209.Idx → EReal) (a4 : S2.Idx → EReal)
    (h : fn (F := Ideal) a0 a1 a2 a3 a4 = fun _ => 1#1) (j : Fin 209) : a2 (ix1 j) ≠ 0 := by
  have h0 := congrFun h ix0
  dsimp only [fn, fn_part1] at h0
  have h1 := (IntOp.andi_eq_one.mp h0).2
  have h2 := Host.reduce_andi_all _ _ _ _ _ h1 (ix1 j)
  intro hz
  have h3 : Ideal.cmp .une (a2 (ix1 j)) (Ideal.ofBits .f32 0x00000000#32) = 1#1 := h2
  rw [hz, Ideal.ofBits_zero_f32] at h3
  simp [Ideal.cmp] at h3

end Cert.Rbf.Widths

end
-- ==== Proof.lean ====
/-
  A radial-basis layer: `out(i, s) = ∑ⱼ exp(−dist(i, j) / (σⱼ · σⱼ)) · W(s, j) + b(s)` over 1024 samples, 209 centres
  and 2 outputs, with `dist(i, j) = √ max(‖xᵢ‖² + ‖cⱼ‖² − 2 ⟨xᵢ, cⱼ⟩, 0)`.

  The kernel and the reference compute this layer in two arrangements. The kernel pads the centres, their squared
  norms, a per-centre factor and the weights from 209 to 256 columns (zero rows, ones, zero weights), takes the
  factor as the reciprocal `1 / (σⱼ · σⱼ)` once, and works through the samples 128 rows at a time; the reference
  divides by `σⱼ · σⱼ` and uses no padding. On the extended reals the two agree entry by entry:

  * the 47 padding columns carry the weight zero, and a product with zero is zero whatever the other factor is, so
    the sum over 256 columns is the sum over the first 209 (`Cert.Lib.ReciprocalPadding.sum_256_209`);
  * on each remaining column `(0 − d) · (1 / y) = (−d) / y` for `y = σⱼ · σⱼ ≠ 0` (`Cert.Lib.ReciprocalPadding.neg_mul_recip`), with no
    finiteness of `d` needed; at `y = 0` the two sides differ (`0 · (1/0) = 0` against the junk value of `0 / 0`), and
    the precondition's conjunct "every width is other than zero" is what excludes that case
    (`Cert.Rbf.Widths.ne_zero`);
  * the squared norms and inner products are the same plain sums on both sides, and a change of float format is the
    identity.

  The modules: `RbfSpec` states the layer as one function of the five arguments; `RefIsRbf` reads the reference's
  result as that function; `BodyValue` reads the kernel body's result on its six blocks; `HostArrays` reads the five
  padded arrays the region finds; `BlockIsRbf` joins the body's result to the layer by the two laws above;
  `KernelIsRbf` assembles the 8 blocks of 128 rows into the whole result array. Nothing is lost in passing to the
  idealized kernel (no operation was rewritten), so `preserves` is trivial.
-/
import proofs.«116189_j57715770523862_2_alg».proof.Defs
import proofs.«116189_j57715770523862_2_alg».proof.Proof.Gen.Kernel
import proofs.«116189_j57715770523862_2_alg».proof.Proof.Gen.Kernel.Skeleton
import proofs.«116189_j57715770523862_2_alg».proof.Proof.Gen.Kernel.Launch
import proofs.«116189_j57715770523862_2_alg».proof.Proof.Gen.Kernel.Points
import proofs.«116189_j57715770523862_2_alg».proof.Proof.Gen.Kernel.Frame
import proofs.«116189_j57715770523862_2_alg».proof.Proof.Gen.KernelIdeal
import proofs.«116189_j57715770523862_2_alg».proof.Proof.Gen.KernelIdeal.Skeleton
import proofs.«116189_j57715770523862_2_alg».proof.Proof.Gen.KernelIdeal.Launch
import proofs.«116189_j57715770523862_2_alg».proof.Proof.Gen.KernelIdeal.Points
import proofs.«116189_j57715770523862_2_alg».proof.Proof.Gen.KernelIdeal.Frame
import proofs.«116189_j57715770523862_2_alg».proof.Proof.Gen.ReferenceIdeal
import proofs.«116189_j57715770523862_2_alg».proof.Proof.Gen.Pre_finite_inputs
import proofs.«116189_j57715770523862_2_alg».proof.Proof.Gen.KernelIdeal.Value
import proofs.«116189_j57715770523862_2_alg».proof.Proof.Gen.ReferenceIdeal.Run
import proofs.«116189_j57715770523862_2_alg».proof.Proof.Gen.ReferenceIdeal.Read
import proofs.«116189_j57715770523862_2_alg».proof.Proof.RefIsRbf
import proofs.«116189_j57715770523862_2_alg».proof.Proof.KernelIsRbf
import proofs.«116189_j57715770523862_2_alg».proof.Proof.WidthsNonzero
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, with every width nonzero, both idealized programs end with the layer's output of
    the arguments: the kernel's result array block by block (`Cert.Rbf.Kernel.run`), the reference's as one term
    (`Cert.Rbf.Ref.val_eq_rbfOut`). -/
theorem algebraic : Cert.algebraic_KernelIdeal_ReferenceIdeal := by
  intro m ρ m' ρ' hpre hagree
  have hσ : ∀ (c : Dev Cert.KernelIdeal.nD) (j : Fin 209), Cert.Rbf.HostArrays.argSigma m c (ix1 j) ≠ 0 :=
    fun c j => Cert.Rbf.Widths.ne_zero _ _ _ _ _ (hpre c) j
  refine ⟨fun c => Cert.Rbf.Kernel.layer m c, Cert.Rbf.Kernel.run m ρ hσ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.Rbf.Ref.val_eq_rbfOut, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
